-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x1024x128 : Shape := ⟨3, ![1024, 1024, 128]⟩
abbrev S1024x128 : Shape := ⟨2, ![1024, 128]⟩
abbrev S_ : Shape := ⟨0, ![]⟩

class Facts : Prop where
  bcast_S_S1024x1024x128 : S_.BroadcastsInDim S1024x1024x128 (![] : Fin 0 → Fin S1024x1024x128.rank)
  reducesTo_S1024x1024x128_S_d0_1_2 : S1024x1024x128.ReducesTo [0, 1, 2] S_
  h_S_ : 0 < S_.numel
  bcast_S_S1024x128 : S_.BroadcastsInDim S1024x128 (![] : Fin 0 → Fin S1024x128.rank)
  reducesTo_S1024x128_S_d0_1 : S1024x128.ReducesTo [0, 1] S_

variable [Facts]

def fn {F : FTy → Type} [FloatOps F] (main_arg0 : FVec F S1024x1024x128 .f32) (main_arg1 : FVec F S1024x128 .f32) : IVec S_ 1 :=
  let main_v0 : FVec F S1024x1024x128 .f32 := Host.absf main_arg0
  let main_cst : FVec F S_ .f32 := constant S_ .f32 0x7F800000#32
  let main_v1 : FVec F S1024x1024x128 .f32 := broadcastInDim S1024x1024x128 ![] bcast_S_S1024x1024x128 main_cst
  let main_v2 : IVec S1024x1024x128 1 := cmpf .olt main_v0 main_v1
  let main_c : IVec S_ 1 := constantI S_ 1 1#1
  let main_v3 : IVec S_ 1 := (fun x v => Host.reduce IntOp.andi x v reducesTo_S1024x1024x128_S_d0_1_2 h_S_) main_v2 main_c
  let main_v4 : FVec F S1024x128 .f32 := Host.absf main_arg1
  let main_cst_0 : FVec F S_ .f32 := constant S_ .f32 0x7F800000#32
  let main_v5 : FVec F S1024x128 .f32 := broadcastInDim S1024x128 ![] bcast_S_S1024x128 main_cst_0
  let main_v6 : IVec S1024x128 1 := cmpf .olt main_v4 main_v5
  let main_c_1 : IVec S_ 1 := constantI S_ 1 1#1
  let main_v7 : IVec S_ 1 := (fun x v => Host.reduce IntOp.andi x v reducesTo_S1024x128_S_d0_1 h_S_) main_v6 main_c_1
  let main_v8 : IVec S_ 1 := andi main_v3 main_v7
  main_v8
-- ==== Kernel.lean ====
abbrev S1024x1024x128 : Shape := ⟨3, ![1024, 1024, 128]⟩
abbrev S1024x128 : Shape := ⟨2, ![1024, 128]⟩
abbrev S16x128 : Shape := ⟨2, ![16, 128]⟩
abbrev S16x1024x128 : Shape := ⟨3, ![16, 1024, 128]⟩
abbrev S8x128 : Shape := ⟨2, ![8, 128]⟩
abbrev S1x1 : Shape := ⟨2, ![1, 1]⟩
abbrev S16x1 : Shape := ⟨2, ![16, 1]⟩
abbrev S16x256x128 : Shape := ⟨3, ![16, 256, 128]⟩
abbrev S256x128 : Shape := ⟨2, ![256, 128]⟩
abbrev S1x256x128 : Shape := ⟨3, ![1, 256, 128]⟩
abbrev S16x256 : Shape := ⟨2, ![16, 256]⟩
abbrev S16 : Shape := ⟨1, ![16]⟩
abbrev S1 : Shape := ⟨1, ![1]⟩
abbrev S_ : Shape := ⟨0, ![]⟩

abbrev nBuf : Space → Nat
  | .hbm => 10
  | .vmem => 6
  | .smem => 0
  | _ => 0

abbrev bufTy : (tb : Table) → Fin (tcTables nBuf tb) → BufTy
  | .hbm, ⟨0, _⟩ => ⟨S1024x1024x128, .f32⟩
  | .hbm, ⟨1, _⟩ => ⟨S1024x128, .f32⟩
  | .hbm, ⟨2, _⟩ => ⟨S16x128, .f32⟩
  | .hbm, ⟨3, _⟩ => ⟨S1x1, .f32⟩
  | .hbm, ⟨4, _⟩ => ⟨S_, .f32⟩
  | .hbm, ⟨5, _⟩ => ⟨S1x1, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S16x1024x128, .f32⟩
  | .local _ .vmem, ⟨1, _⟩ => ⟨S16x1024x128, .f32⟩
  | .local _ .vmem, ⟨2, _⟩ => ⟨S1024x128, .f32⟩
  | .local _ .vmem, ⟨3, _⟩ => ⟨S8x128, .f32⟩
  | .local _ .vmem, ⟨4, _⟩ => ⟨S8x128, .f32⟩
  | .local _ .vmem, ⟨5, _⟩ => ⟨S1x1, .f32⟩
  | _, _ => ⟨S1024x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![2, 32], ![false, false]⟩

@[reducible] def k0_t1_loop : Scf.Loop 32 :=
  let c0_i32_1 : BitVec 32 := 0#32
  let c4_i32 : BitVec 32 := 4#32
  let v4 : BitVec 32 := Scalar.addi c0_i32_1 c4_i32
  let c1_i32 : BitVec 32 := 1#32
  ⟨c0_i32_1, v4, c1_i32⟩
def k0_mult1 (k0_t1 : Fin k0_t1_loop.trips) : BitVec 32 :=
  let c0_i32_1 : BitVec 32 := 0#32
  let c1_i32 : BitVec 32 := 1#32
  let arg6 : BitVec 32 := Scf.iv c0_i32_1 c1_i32 k0_t1
  let c256_i32 : BitVec 32 := 256#32
  let v16 : BitVec 32 := Scalar.muli arg6 c256_i32
  v16
def k0_off1 (k0_t1 : Fin k0_t1_loop.trips) : Fin 3 → Nat :=
  let c0_8 : Index := 0#32
  let c0_i32_1 : BitVec 32 := 0#32
  let c1_i32 : BitVec 32 := 1#32
  let arg6 : BitVec 32 := Scf.iv c0_i32_1 c1_i32 k0_t1
  let c256_i32 : BitVec 32 := 256#32
  let v16 : BitVec 32 := Scalar.muli arg6 c256_i32
  let v17 : BitVec 32 := v16
  let v18 : Index := Scalar.indexCast v17
  let c0_9 : Index := 0#32
  ![0, v18.toNat, 0]
def k0_off2 (k0_t1 : Fin k0_t1_loop.trips) : Fin 2 → Nat :=
  let c0_i32_1 : BitVec 32 := 0#32
  let c1_i32 : BitVec 32 := 1#32
  let arg6 : BitVec 32 := Scf.iv c0_i32_1 c1_i32 k0_t1
  let c256_i32 : BitVec 32 := 256#32
  let v16 : BitVec 32 := Scalar.muli arg6 c256_i32
  let v17 : BitVec 32 := v16
  let v20 : Index := Scalar.indexCast v17
  let c0_10 : Index := 0#32
  ![v20.toNat, 0]
def k0_cond2 (i : grid0.Coords) : BitVec 1 :=
  let arg1 : BitVec 32 := BitVec.ofNat 32 (i 1).val
  let c31_i32 : BitVec 32 := 31#32
  let v13 : BitVec 1 := Scalar.cmpi .eq arg1 c31_i32
  let v14 : BitVec 32 := Scalar.extui v13
  let c0_i32_7 : BitVec 32 := 0#32
  let v15 : BitVec 1 := Scalar.cmpi .ne v14 c0_i32_7
  v15

def cc0_transform_0 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  h_S16x256x128 : 0 < S16x256x128.numel
  h_S256x128 : 0 < S256x128.numel
  shapeCasts_S256x128_S1x256x128 : S256x128.ShapeCasts S1x256x128
  broadcasts_S1x256x128_S16x256x128 : S1x256x128.Broadcasts S16x256x128
  reduces_S16x256x128_S16x256 : S16x256x128.Reduces [2] S16x256
  reduces_S16x256_S16 : S16x256.Reduces [1] S16
  shapeCasts_S16_S16x1 : S16.ShapeCasts S16x1
  reduces_S16x1_S1 : S16x1.Reduces [0] S1
  shapeCasts_S1_S1x1 : S1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  slices_S16x128_S1x1_0_0 : S16x128.Slices ![0, 0] S1x1
  shapeCasts_S1x1_S_ : S1x1.ShapeCasts S_
  slices_S16x128_S1x1_8_0 : S16x128.Slices ![8, 0] S1x1
  hrank0 : 0 < grid0.rank
  k0_t1_ok : k0_t1_loop.OK
  k0_mult1_dvd : ∀ k0_t1 : Fin k0_t1_loop.trips, 256 ∣ (k0_mult1 k0_t1).toNat
  k0_off1_inb : ∀ k0_t1 : Fin k0_t1_loop.trips, ∀ a, (k0_off1 k0_t1) a + S16x256x128.size a ≤ S16x1024x128.size a
  k0_off2_inb : ∀ k0_t1 : Fin k0_t1_loop.trips, ∀ a, (k0_off2 k0_t1) a + S256x128.size a ≤ S1024x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x1024x128.size a ≤ S1024x1024x128.size a
  hwx0_0 : ∀ i : grid0.Coords, EltTy.bits .f32 = 32 ∨ (Rect.block (s := S1024x1024x128) S16x1024x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S1024x128.size a
  hwx0_1 : ∀ i : grid0.Coords, EltTy.bits .f32 = 32 ∨ (Rect.block (s := S1024x128) S1024x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

abbrev win0_0 : Pipeline.Window sig grid0 :=
  Pipeline.Window.ofSpec (Memref.whole main_arg0) S16x1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S1024x1024x128 : Shape := ⟨3, ![1024, 1024, 128]⟩
abbrev S1024x128 : Shape := ⟨2, ![1024, 128]⟩
abbrev S1x1024x128 : Shape := ⟨3, ![1, 1024, 128]⟩
abbrev S_ : Shape := ⟨0, ![]⟩
abbrev S1024x1024 : Shape := ⟨2, ![1024, 1024]⟩

abbrev nBuf : Space → Nat
  | .hbm => 13
  | .vmem => 0
  | .smem => 0
  | _ => 0

abbrev bufTy : (tb : Table) → Fin (tcTables nBuf tb) → BufTy
  | .hbm, ⟨0, _⟩ => ⟨S1024x1024x128, .f32⟩
  | .hbm, ⟨1, _⟩ => ⟨S1024x128, .f32⟩
  | .hbm, ⟨2, _⟩ => ⟨S1x1024x128, .f32⟩
  | .hbm, ⟨3, _⟩ => ⟨S1024x1024x128, .f32⟩
  | .hbm, ⟨4, _⟩ => ⟨S1024x1024x128, .f32⟩
  | .hbm, ⟨5, _⟩ => ⟨S1024x1024x128, .f32⟩
  | .hbm, ⟨6, _⟩ => ⟨S_, .f32⟩
  | .hbm, ⟨7, _⟩ => ⟨S1024x1024, .f32⟩
  | .hbm, ⟨8, _⟩ => ⟨S1024x1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | _, _ => ⟨S1024x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S1024x128_S1x1024x128_1_2 : S1024x128.BroadcastsInDim S1x1024x128 (![1, 2] : Fin 2 → Fin S1x1024x128.rank)
  bcast_S1x1024x128_S1024x1024x128_0_1_2 : S1x1024x128.BroadcastsInDim S1024x1024x128 (![0, 1, 2] : Fin 3 → Fin S1024x1024x128.rank)
  reducesTo_S1024x1024x128_S1024x1024_d2 : S1024x1024x128.ReducesTo [2] S1024x1024
  h_S_ : 0 < S_.numel
  reducesTo_S1024x1024_S_d0_1 : S1024x1024.ReducesTo [0, 1] S_

variable [Facts₀]

class Facts : Prop extends Facts₀ where

variable [Facts]
-- ==== Proof.Payloads.lean ====
/-
  The loss kernel's arithmetic, read at an index over the extended reals.

  One trip of the body's loop takes a block `X` of sixteen rows by 256 columns (by 128 features) of the inputs and the
  matching 256 target rows `T`, and adds to each row's running value the sum over the 256 columns of the Euclidean
  distance  √(∑_d (X r q d − T q d)²)  (`trip_apply`). After the loop the sixteen row values are added and the
  result is added to the accumulator (`total_apply`); the reset stores zero (`reset_apply`); the last point of a run
  copies the accumulator to every place of the output block (`spread_apply`).
-/
import proofs.«165791_j84490596646977_2_alg».proof.Proof.Gen.KernelIdeal.Skeleton
import Idealize.ShloMosaic.Lib.ValueIdx
import Idealize.ShloMosaic.Lib.Pipeline.Value
import Idealize.ShloMosaic.PureOps.Ideal.Laws

noncomputable section

open Idealize.ShloMosaic Idealize.ShloMosaic.ValueIdx

namespace Cert.KernelIdeal.Pay

open Cert.KernelIdeal Cert.KernelIdeal.Gen

/-- The distance between row `r`, column `q` of an input block and target row `q`. -/
def dist (X : Vec Ideal S16x256x128 .f32) (T : Vec Ideal S256x128 .f32) (r : Fin 16) (q : Fin 256) : EReal :=
  Ideal.sqrt (∑ d : Fin 128, (X (ix3 r q d) - T (ix2 q d)) * (X (ix3 r q d) - T (ix2 q d)))

/-- One trip of the loop at row `r`: the carried value plus the 256 distances of the chunk. -/
theorem trip_apply (acc : FVec Ideal S16x1 .f32) (X : Vec Ideal S16x256x128 .f32) (T : Vec Ideal S256x128 .f32)
    (r : Fin 16) (z : Fin 1) :
    k0_pay3 (F := Ideal) acc X T (ix2 r z) = acc (ix2 r z) + ∑ q : Fin 256, dist X T r q := by
  have hz := z.isLt
  unfold k0_pay3
  show acc (ix2 r z) + shapeCast S16x1 _ shapeCasts_S16_S16x1 (ix2 r z) = _
  refine congrArg (acc (ix2 r z) + ·) ?_
  rw [shapeCast_apply _ shapeCasts_S16_S16x1 (ix2 r z) (ix1 r)
    (by rw [Shape.rowMajor_val_one, Shape.rowMajor_val_two]; show r.val = r.val * 1 + z.val; omega)]
  refine (Ideal.multiReduction_add_single _ 0x00000000#32 reduces_S16x256_S16 (.inl rfl) rfl (ix1 r)).trans ?_
  refine Finset.sum_congr rfl fun (q : Fin 256) _ => ?_
  show Ideal.sqrt (multiReduction (F := Ideal) .add [2] S16x256 _ 0x00000000#32 reduces_S16x256x128_S16x256 _ _
    (reduces_S16x256_S16.lift (ix1 r) q)) = _
  unfold dist
  refine congrArg Ideal.sqrt ?_
  refine (Ideal.multiReduction_add_single _ 0x00000000#32 reduces_S16x256x128_S16x256 (.inl rfl) rfl _).trans ?_
  refine Finset.sum_congr rfl fun (d : Fin 128) _ => ?_
  have e : reduces_S16x256x128_S16x256.lift (reduces_S16x256_S16.lift (ix1 r) q) d = ix3 r q d :=
    funext fun a => Fin.ext (by match a with | ⟨0, _⟩ => rfl | ⟨1, _⟩ => rfl | ⟨2, _⟩ => rfl)
  rw [e]
  have b : broadcastTo S16x256x128 (shapeCast S1x256x128 T shapeCasts_S256x128_S1x256x128)
      broadcasts_S1x256x128_S16x256x128 (ix3 r q d) = T (ix2 q d) := by
    rw [broadcastTo_apply _ broadcasts_S1x256x128_S16x256x128 (ix3 r q d) (ix3 (0 : Fin 1) q d)
      (fun a => by match a with | ⟨0, _⟩ => rfl | ⟨1, _⟩ => rfl | ⟨2, _⟩ => rfl)]
    exact shapeCast_apply T shapeCasts_S256x128_S1x256x128 (ix3 (0 : Fin 1) q d) (ix2 q d)
      (by rw [Shape.rowMajor_val_two, Shape.rowMajor_val_three]
          show q.val * 128 + d.val = ((0 : Fin 1).val * 256 + q.val) * 128 + d.val
          simp)
  show (X (ix3 r q d) - _) * (X (ix3 r q d) - _) = _
  rw [b]

/-- The reset stores zero. -/
theorem reset_apply (y : S1x1.Idx) : k0_pay1 (F := Ideal) y = 0 := by
  unfold k0_pay1
  rw [shapeCast_self]
  exact Ideal.ofBits_zero_f32

/-- The loop starts every row at zero. -/
theorem start_apply (y : S16x1.Idx) : k0_pay2 (F := Ideal) y = 0 := Ideal.ofBits_zero_f32

/-- After the loop: the accumulator plus the sum of the sixteen row values. -/
theorem total_apply (rows : FVec Ideal S16x1 .f32) (a : Vec Ideal S1x1 .f32) (y : S1x1.Idx) :
    k0_pay4 (F := Ideal) rows a y = a y + ∑ r : Fin 16, rows (ix2 r (0 : Fin 1)) := by
  unfold k0_pay4
  rw [shapeCast_self]
  show a y + shapeCast S1x1 _ shapeCasts_S1_S1x1 y = _
  refine congrArg (a y + ·) ?_
  rw [shapeCast_apply _ shapeCasts_S1_S1x1 y (ix1 (0 : Fin 1))
    (by rw [Shape.rowMajor_val_one, Shape.rowMajor_val_two]
        have h0 := (y 0).isLt; have h1 := (y 1).isLt
        show (0 : Fin 1).val = (y 0).val * 1 + (y 1).val
        change (y 0).val < 1 at h0; change (y 1).val < 1 at h1
        simp; omega)]
  refine (Ideal.multiReduction_add_single _ 0x00000000#32 reduces_S16x1_S1 (.inl rfl) rfl _).trans ?_
  refine Finset.sum_congr rfl fun (r : Fin 16) _ => ?_
  exact congrArg rows (funext fun a => Fin.ext (by match a with | ⟨0, _⟩ => rfl | ⟨1, _⟩ => rfl))

/-- The last point of a run writes the accumulator's one value to every place of the output block. -/
theorem spread_apply (a : Vec Ideal S1x1 .f32) (y : S8x128.Idx) :
    k0_pay5 (F := Ideal) a y = a (ix2 (0 : Fin 1) (0 : Fin 1)) := by
  unfold k0_pay5
  rw [shapeCast_self]
  exact broadcastTo_apply a broadcasts_S1x1_S8x128 y (ix2 (0 : Fin 1) (0 : Fin 1))
    (fun a => by match a with | ⟨0, _⟩ => rfl | ⟨1, _⟩ => rfl)

end Cert.KernelIdeal.Pay

end
-- ==== Proof.SumLaws.lean ====
/-
  The arithmetic of the loss kernel's summation order, over any commutative additive monoid (used at the
  extended reals, whose addition is commutative and associative, infinities included).

  The kernel adds the 1024 × 1024 row norms  N a b  in this order: grid point p (of 64) owns the sixteen rows
  16 p … 16 p + 15; for each row it runs through four chunks of 256 columns, adding each chunk's sum to a
  running value that starts at zero (`runSum`); it adds the sixteen row values (`pointSum`); and it adds the
  points' values into an accumulator that is reset to zero at points 0 and 32 (`gridAcc`), so that the
  accumulator after point 31 holds the first 512 rows and after point 63 the last 512. The host adds the two.
  `kernel_order_eq` says that this is the plain double sum over all rows and columns.

  Index functions are total on the naturals (`nat2` extends a function of two bounded indices by zero), so that
  the recursions below carry no bounds.
-/
import Mathlib.Algebra.BigOperators.Fin
import Mathlib.Algebra.BigOperators.Intervals

namespace Cert.LossSums

open Finset

variable {M : Type*} [AddCommMonoid M]

/-- `s 0 + s 1 + … + s (k - 1)` added left to right from zero. -/
def runSum (s : ℕ → M) : ℕ → M
  | 0 => 0
  | k + 1 => runSum s k + s k

theorem runSum_eq (s : ℕ → M) (k : ℕ) : runSum s k = ∑ i ∈ range k, s i := by
  induction k with
  | zero => rfl
  | succ k ih => rw [runSum, ih, sum_range_succ]

/-- The accumulator carried over the grid points: reset to `0 + g n` where `n` is a multiple of 32, else the
    previous point's value plus `g n`. -/
def gridAcc (g : ℕ → M) : ℕ → M
  | 0 => 0 + g 0
  | n + 1 => if (n + 1) % 32 = 0 then 0 + g (n + 1) else gridAcc g n + g (n + 1)

theorem gridAcc_reset (g : ℕ → M) (n : ℕ) (h : n % 32 = 0) : gridAcc g n = 0 + g n := by
  cases n with
  | zero => rfl
  | succ n => rw [gridAcc, if_pos h]

theorem gridAcc_step (g : ℕ → M) (n : ℕ) (h : ¬(n + 1) % 32 = 0) : gridAcc g (n + 1) = gridAcc g n + g (n + 1) := by
  rw [gridAcc, if_neg h]

/-- After the `j`-th point of the `c`-th run of 32 points the accumulator holds that run's first `j + 1` values. -/
theorem gridAcc_eq (g : ℕ → M) (c j : ℕ) (hj : j < 32) :
    gridAcc g (32 * c + j) = ∑ i ∈ range (j + 1), g (32 * c + i) := by
  induction j with
  | zero => rw [gridAcc_reset g _ (by omega), zero_add, sum_range_one]
  | succ j ih =>
    rw [show 32 * c + (j + 1) = (32 * c + j) + 1 from rfl, gridAcc_step g _ (by omega), ih (by omega),
      sum_range_succ (fun i => g (32 * c + i)) (j + 1)]
    rfl

/-- A sum over `a * b` consecutive naturals, split into `a` runs of `b`. -/
theorem sum_range_mul (a b : ℕ) (f : ℕ → M) :
    ∑ i ∈ range (a * b), f i = ∑ p ∈ range a, ∑ r ∈ range b, f (b * p + r) := by
  induction a with
  | zero => simp
  | succ a ih => rw [Nat.succ_mul, sum_range_add, ih, sum_range_succ, Nat.mul_comm a b]

/-- A function of two indices below 1024, extended by zero to all naturals. -/
def nat2 (N : Fin 1024 → Fin 1024 → M) (a b : ℕ) : M :=
  if h : a < 1024 ∧ b < 1024 then N ⟨a, h.1⟩ ⟨b, h.2⟩ else 0

theorem nat2_fin (N : Fin 1024 → Fin 1024 → M) (a b : Fin 1024) : nat2 N a.val b.val = N a b :=
  dif_pos ⟨a.isLt, b.isLt⟩

theorem sum_nat2 (N : Fin 1024 → Fin 1024 → M) :
    ∑ a ∈ range 1024, ∑ b ∈ range 1024, nat2 N a b = ∑ a : Fin 1024, ∑ b : Fin 1024, N a b := by
  rw [sum_range]
  refine sum_congr rfl fun a _ => ?_
  rw [sum_range]
  exact sum_congr rfl fun b _ => nat2_fin N a b

/-- One chunk of 256 columns of row `16 p + r`. -/
def chunkSum (N : ℕ → ℕ → M) (p r k : ℕ) : M := ∑ q ∈ range 256, N (16 * p + r) (256 * k + q)

/-- Row `16 p + r`: its four chunks, added left to right from zero. -/
def rowSum (N : ℕ → ℕ → M) (p r : ℕ) : M := runSum (chunkSum N p r) 4

/-- Grid point `p`: its sixteen rows. -/
def pointSum (N : ℕ → ℕ → M) (p : ℕ) : M := ∑ r ∈ range 16, rowSum N p r

/-- What the kernel's program returns before the division: the accumulator after point 31 plus the accumulator
    after point 63. -/
def kernelOrder (N : ℕ → ℕ → M) : M := gridAcc (pointSum N) 31 + gridAcc (pointSum N) 63

theorem rowSum_eq (N : ℕ → ℕ → M) (p r : ℕ) : rowSum N p r = ∑ b ∈ range 1024, N (16 * p + r) b := by
  unfold rowSum chunkSum
  rw [runSum_eq, show (1024 : ℕ) = 4 * 256 from rfl, sum_range_mul 4 256 (fun b => N (16 * p + r) b)]

theorem kernel_order_eq (N : ℕ → ℕ → M) :
    kernelOrder N = ∑ a ∈ range 1024, ∑ b ∈ range 1024, N a b := by
  have hp : ∀ p, pointSum N p = ∑ r ∈ range 16, ∑ b ∈ range 1024, N (16 * p + r) b := fun p =>
    sum_congr rfl fun r _ => rowSum_eq N p r
  have h0 : gridAcc (pointSum N) 31 = ∑ i ∈ range 32, pointSum N i := by
    have h := gridAcc_eq (pointSum N) 0 31 (by omega)
    rw [show 32 * 0 + 31 = 31 from rfl] at h
    exact h.trans (sum_congr rfl fun i _ => congrArg (pointSum N) (by omega))
  have h1 : gridAcc (pointSum N) 63 = ∑ i ∈ range 32, pointSum N (32 + i) := by
    have h := gridAcc_eq (pointSum N) 1 31 (by omega)
    rw [show 32 * 1 + 31 = 63 from rfl] at h
    exact h.trans (sum_congr rfl fun i _ => congrArg (pointSum N) (by omega))
  have hs : ∑ a ∈ range 1024, ∑ b ∈ range 1024, N a b = ∑ p ∈ range (32 + 32), pointSum N p := by
    rw [show (1024 : ℕ) = 64 * 16 from rfl, sum_range_mul 64 16 (fun a => ∑ b ∈ range (64 * 16), N a b)]
    exact sum_congr rfl fun p _ => (hp p).symm
  unfold kernelOrder
  rw [h0, h1, hs, sum_range_add]

end Cert.LossSums
-- ==== Proof.LoopValue.lean ====
/-
  The body's loop over the four chunks of 256 columns, read as a value.

  Each trip yields the trip's arithmetic of the carried value and of the two chunks it loads: columns
  256 k … 256 k + 255 of the input block and of the targets (`trip_eq`). Over the extended reals the carried value at
  row `r` after `k` trips is therefore the left-to-right sum of the first `k` chunk sums of that row's distances
  (`loop_apply`), the distances given as a function `N` of the global row `16 p + r` and the column.
-/
import proofs.«165791_j84490596646977_2_alg».proof.Proof.Gen.KernelIdeal.Loops
import proofs.«165791_j84490596646977_2_alg».proof.Proof.Payloads
import proofs.«165791_j84490596646977_2_alg».proof.Proof.SumLaws
import Idealize.ShloMosaic.Lib.Pipeline.Value

noncomputable section

open Idealize.ShloMosaic Idealize.ShloMosaic.TcCoe Idealize.ShloMosaic.ValueIdx Idealize.SL.Sem

namespace Cert.KernelIdeal.LoopValue

open Cert.KernelIdeal Cert.KernelIdeal.Gen Cert.LossSums

/-- The loop makes four trips. -/
theorem trips_eq : k0_t1_loop.trips = 4 := by decide

section AnyValues
variable {F : FTy → Type} [FloatOps F]

/-- One trip yields its arithmetic of the carried value and of the chunks of the two blocks it loads. -/
theorem trip_eq (𝒱 : Variants) (c : Dev nD) (bd : Option 𝒱.V) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole)
    (x0 : Vec F S16x1024x128 .f32) (x1 : Vec F S1024x128 .f32) (k : Fin k0_t1_loop.trips) (acc : FVec F S16x1 .f32) :
    tripR_k0_t1 (F := F) 𝒱 c bd i arg2 harg2 arg3 harg3 arg4 harg4 arg5 harg5 (harg2.unread x0) (harg3.unread x1) k acc
      = k0_pay3 acc (View.ld x0 (Rect.unit (s := S16x1024x128) (k0_off1 k) S16x256x128.size (k0_off1_inb k)))
          (View.ld x1 (Rect.unit (s := S1024x128) (k0_off2 k) S256x128.size (k0_off2_inb k))) := by
  unfold tripR_k0_t1 trip_k0_t1
  dsimp only
  rw [View.readAt_eq_ld, View.readAt_eq_ld, harg2.read_unread, harg3.read_unread]

end AnyValues

/-- A distance inside chunk `k` of the blocks is the distance at column `256 k + q` of the whole blocks. -/
theorem chunk_dist (x0 : Vec Ideal S16x1024x128 .f32) (x1 : Vec Ideal S1024x128 .f32) (k : Fin k0_t1_loop.trips)
    (r : Fin 16) (q : Fin 256) (hb : 256 * k.val + q.val < 1024) :
    Pay.dist (View.ld x0 (Rect.unit (s := S16x1024x128) (k0_off1 k) S16x256x128.size (k0_off1_inb k)))
        (View.ld x1 (Rect.unit (s := S1024x128) (k0_off2 k) S256x128.size (k0_off2_inb k))) r q
      = Ideal.sqrt (∑ d : Fin 128,
          (x0 (ix3 r ⟨256 * k.val + q.val, hb⟩ d) - x1 (ix2 ⟨256 * k.val + q.val, hb⟩ d))
            * (x0 (ix3 r ⟨256 * k.val + q.val, hb⟩ d) - x1 (ix2 ⟨256 * k.val + q.val, hb⟩ d))) := by
  unfold Pay.dist
  refine congrArg Ideal.sqrt (Finset.sum_congr rfl fun d _ => ?_)
  have h1 := k0_off1_eq k
  have h2 := k0_off2_eq k
  have e0 : (Rect.unit (s := S16x1024x128) (k0_off1 k) S16x256x128.size (k0_off1_inb k)).idx (ix3 r q d)
      = ix3 r ⟨256 * k.val + q.val, hb⟩ d := funext fun a => Fin.ext (by
    match a with
    | ⟨0, _⟩ => show (k0_off1 k) 0 + 1 * r.val = r.val; rw [h1]; show 0 + 1 * r.val = r.val; omega
    | ⟨1, _⟩ => show (k0_off1 k) 1 + 1 * q.val = 256 * k.val + q.val; rw [h1]; show 256 * k.val + 1 * q.val = _; omega
    | ⟨2, _⟩ => show (k0_off1 k) 2 + 1 * d.val = d.val; rw [h1]; show 0 + 1 * d.val = d.val; omega)
  have e1 : (Rect.unit (s := S1024x128) (k0_off2 k) S256x128.size (k0_off2_inb k)).idx (ix2 q d)
      = ix2 ⟨256 * k.val + q.val, hb⟩ d := funext fun a => Fin.ext (by
    match a with
    | ⟨0, _⟩ => show (k0_off2 k) 0 + 1 * q.val = 256 * k.val + q.val; rw [h2]; show 256 * k.val + 1 * q.val = _; omega
    | ⟨1, _⟩ => show (k0_off2 k) 1 + 1 * d.val = d.val; rw [h2]; show 0 + 1 * d.val = d.val; omega)
  show (x0 ((Rect.unit (s := S16x1024x128) (k0_off1 k) S16x256x128.size (k0_off1_inb k)).idx (ix3 r q d))
      - x1 ((Rect.unit (s := S1024x128) (k0_off2 k) S256x128.size (k0_off2_inb k)).idx (ix2 q d)))
    * (x0 ((Rect.unit (s := S16x1024x128) (k0_off1 k) S16x256x128.size (k0_off1_inb k)).idx (ix3 r q d))
      - x1 ((Rect.unit (s := S1024x128) (k0_off2 k) S256x128.size (k0_off2_inb k)).idx (ix2 q d))) = _
  rw [e0, e1]

/-- The carried value at row `r` after `k` trips: the first `k` chunk sums of the row's distances, added from zero.
    `N` gives the distance of global row `16 p + r` to target row `b`, as the blocks hold it (`hN`). -/
theorem loop_apply (𝒱 : Variants) (c : Dev nD) (bd : Option 𝒱.V) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val)
    (r : Fin 16) (z : Fin 1) : ∀ k : ℕ, k ≤ 4 →
    st_k0_t1 (F := Ideal) 𝒱 c bd i arg2 harg2 arg3 harg3 arg4 harg4 arg5 harg5 (harg2.unread x0) (harg3.unread x1)
        k0_pay2 k (ix2 r z)
      = runSum (chunkSum N p r.val) k
  | 0, _ => Pay.start_apply _
  | k + 1, hk => by
    have hk4 : k < k0_t1_loop.trips := by rw [trips_eq]; omega
    rw [show k + 1 = (⟨k, hk4⟩ : Fin k0_t1_loop.trips).val + 1 from rfl, st_k0_t1_succ, trip_eq, Pay.trip_apply]
    show _ + _ = runSum (chunkSum N p r.val) k + chunkSum N p r.val k
    rw [loop_apply 𝒱 c bd i arg2 harg2 arg3 harg3 arg4 harg4 arg5 harg5 x0 x1 p N hN r z k (by omega)]
    refine congrArg (runSum (chunkSum N p r.val) k + ·) ?_
    unfold chunkSum
    rw [Finset.sum_range]
    refine Finset.sum_congr rfl fun (q : Fin 256) _ => ?_
    have hb : 256 * k + q.val < 1024 := by have := q.isLt; omega
    exact (chunk_dist x0 x1 ⟨k, hk4⟩ r q hb).trans (hN r ⟨256 * k + q.val, hb⟩)

end Cert.KernelIdeal.LoopValue

end
-- ==== Proof.CaseValues.lean ====
/-
  What one grid point leaves in the accumulator and in the output block, case by case.

  The body has three cases. At the first point of a run of 32 it stores zero into the accumulator, reads it back and
  stores zero plus the point's sum; at the other points it stores the previous value plus the point's sum; and at the
  last point of a run it also copies the new accumulator to every place of the output block. The point's sum is the
  sum over its sixteen rows of the loop's result (LoopValue), that is `pointSum N p` of the distance function `N`.
-/
import proofs.«165791_j84490596646977_2_alg».proof.Proof.Gen.KernelIdeal.Frame
import proofs.«165791_j84490596646977_2_alg».proof.Proof.LoopValue
import Idealize.ShloMosaic.Lib.Pipeline.Value
import Idealize.ShloMosaic.Lib.Tactic

noncomputable section

open Idealize.ShloMosaic Idealize.ShloMosaic.TcCoe Idealize.ShloMosaic.ValueIdx Idealize.SL.Sem

namespace Cert.KernelIdeal.CaseValues

open Cert.KernelIdeal Cert.KernelIdeal.Gen Cert.LossSums Cert.KernelIdeal.LoopValue

theorem hz : (![0, 0] : Fin 2 → Nat) = fun _ => 0 := funext fun a => by fin_cases a <;> rfl

section AnyValues
variable {F : FTy → Type} [FloatOps F]

/-- The sixteen row values the loop ends with, from the two blocks the point is given. -/
abbrev rows (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole)
    (x0 : Vec F S16x1024x128 .f32) (x1 : Vec F S1024x128 .f32) : FVec F S16x1 .f32 :=
  st_k0_t1 (F := F) Variants.none c none i arg2 harg2 arg3 harg3 arg4 harg4 arg5 harg5 (harg2.unread x0) (harg3.unread x1)
    k0_pay2 k0_t1_loop.trips

/-- The first point of a run leaves the point's total added to the zero it has just stored. -/
theorem first_found (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec F S16x1024x128 .f32) (x1 : Vec F S1024x128 .f32) :
    sout0_A_0 c i arg2 harg2 arg3 harg3 arg4 harg4 arg5 harg5 hc0 hc1 x0 x1 = k0_pay4 (rows c i arg2 harg2 arg3 harg3 arg4 harg4 arg5 harg5 x0 x1) k0_pay1 := by
  unfold sout0_A_0
  rw [View.read_writes_eq_canon _ _ _ (scover0_A_0 c i arg2 harg2 arg3 harg3 arg4 harg4 arg5 harg5 hc0 hc1 x0 x1)]
  unfold kernelRun0_A
  dsimp only
  sl_unfold_words
  rw [View.canon_cons_unit_zero (S := S1x1) hz, View.readCov_unit_zero (S := S1x1) _ hz]

/-- A later point leaves the point's total added to what the accumulator held. -/
theorem later_found (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec F S16x1024x128 .f32) (x1 : Vec F S1024x128 .f32) (xs0 : Vec F S1x1 .f32) :
    sout0_B_0 c i arg2 harg2 arg3 harg3 arg4 harg4 arg5 harg5 hc0 hc1 x0 x1 xs0 = k0_pay4 (rows c i arg2 harg2 arg3 harg3 arg4 harg4 arg5 harg5 x0 x1) xs0 := by
  unfold sout0_B_0
  rw [View.read_writes_eq_canon _ _ _ (scover0_B_0 c i arg2 harg2 arg3 harg3 arg4 harg4 arg5 harg5 hc0 hc1 x0 x1 xs0)]
  unfold kernelRun0_B
  dsimp only
  rw [View.canon_unit_zero hz]
  simp only [View.readAt_eq_ld, harg5.read_unread, View.ld_unit_zero (S := S1x1) hz]

/-- So does the last point of a run, -/
theorem last_found (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S16x1024x128 .f32) (x1 : Vec F S1024x128 .f32) (xs0 : Vec F S1x1 .f32) :
    sout0_C_0 c i arg2 harg2 arg3 harg3 arg4 harg4 arg5 harg5 hc0 hc1 x0 x1 xs0 = k0_pay4 (rows c i arg2 harg2 arg3 harg3 arg4 harg4 arg5 harg5 x0 x1) xs0 := by
  unfold sout0_C_0
  rw [View.read_writes_eq_canon _ _ _ (scover0_C_0 c i arg2 harg2 arg3 harg3 arg4 harg4 arg5 harg5 hc0 hc1 x0 x1 xs0)]
  unfold kernelRun0_C
  dsimp only
  sl_unfold_words
  rw [View.canon_unit_zero hz]
  simp only [View.readAt_eq_ld, harg5.read_unread, View.ld_unit_zero (S := S1x1) hz]

/-- and it fills the output block with the new accumulator. -/
theorem last_out_found (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec F S16x1024x128 .f32) (x1 : Vec F S1024x128 .f32) (xs0 : Vec F S1x1 .f32) :
    out0_C_2 c i arg2 harg2 arg3 harg3 arg4 harg4 arg5 harg5 hc0 hc1 x0 x1 xs0 = k0_pay5 (k0_pay4 (rows c i arg2 harg2 arg3 harg3 arg4 harg4 arg5 harg5 x0 x1) xs0) := by
  unfold out0_C_2
  rw [View.read_writes_eq_canon _ _ _ (cover0_C_2 c i arg2 harg2 arg3 harg3 arg4 harg4 arg5 harg5 hc0 hc1 x0 x1 xs0)]
  unfold kernelRun0_C
  dsimp only
  sl_unfold_words
  rw [View.canon_unit_zero (S := S8x128) hz, View.readCov_unit_zero (S := S1x1) _ hz]
  simp only [View.readAt_eq_ld, harg5.read_unread, View.ld_unit_zero (S := S1x1) hz]

end AnyValues

/-! ## Over the extended reals -/

/-- The point's total: the accumulator's value plus the point's sum of distances. -/
theorem total_val (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val)
    (a : Vec Ideal S1x1 .f32) (y : S1x1.Idx) :
    k0_pay4 (F := Ideal) (rows c i arg2 harg2 arg3 harg3 arg4 harg4 arg5 harg5 x0 x1) a y = a y + pointSum N p := by
  rw [Pay.total_apply]
  refine congrArg (a y + ·) ?_
  unfold pointSum
  rw [Finset.sum_range]
  refine Finset.sum_congr rfl fun (r : Fin 16) _ => ?_
  unfold rows rowSum
  rw [trips_eq]
  exact loop_apply Variants.none c none i arg2 harg2 arg3 harg3 arg4 harg4 arg5 harg5 x0 x1 p N hN r 0 4 le_rfl

theorem first_val (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : cond0_0 i) (hc1 : ¬cond0_1 i)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val) (y : S1x1.Idx) :
    sout0_A_0 (F := Ideal) c i arg2 harg2 arg3 harg3 arg4 harg4 arg5 harg5 hc0 hc1 x0 x1 y = 0 + pointSum N p := by
  rw [first_found, total_val c i arg2 harg2 arg3 harg3 arg4 harg4 arg5 harg5 x0 x1 p N hN, Pay.reset_apply]

theorem later_val (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : ¬cond0_1 i)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val)
    (xs0 : Vec Ideal S1x1 .f32) (y : S1x1.Idx) :
    sout0_B_0 (F := Ideal) c i arg2 harg2 arg3 harg3 arg4 harg4 arg5 harg5 hc0 hc1 x0 x1 xs0 y = xs0 y + pointSum N p := by
  rw [later_found, total_val c i arg2 harg2 arg3 harg3 arg4 harg4 arg5 harg5 x0 x1 p N hN]

theorem last_val (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val)
    (xs0 : Vec Ideal S1x1 .f32) (y : S1x1.Idx) :
    sout0_C_0 (F := Ideal) c i arg2 harg2 arg3 harg3 arg4 harg4 arg5 harg5 hc0 hc1 x0 x1 xs0 y = xs0 y + pointSum N p := by
  rw [last_found, total_val c i arg2 harg2 arg3 harg3 arg4 harg4 arg5 harg5 x0 x1 p N hN]

theorem last_out_val (c : Dev nD) (i : grid0.Coords)
    (arg2 : Memref sig .tc .vmem S16x1024x128 .f32) (harg2 : arg2.IsWhole)
    (arg3 : Memref sig .tc .vmem S1024x128 .f32) (harg3 : arg3.IsWhole)
    (arg4 : Memref sig .tc .vmem S8x128 .f32) (harg4 : arg4.IsWhole)
    (arg5 : Memref sig .tc .vmem S1x1 .f32) (harg5 : arg5.IsWhole) (hc0 : ¬cond0_0 i) (hc1 : cond0_1 i)
    (x0 : Vec Ideal S16x1024x128 .f32) (x1 : Vec Ideal S1024x128 .f32) (p : ℕ) (N : ℕ → ℕ → EReal)
    (hN : ∀ (r : Fin 16) (b : Fin 1024),
      Ideal.sqrt (∑ d : Fin 128, (x0 (ix3 r b d) - x1 (ix2 b d)) * (x0 (ix3 r b d) - x1 (ix2 b d))) = N (16 * p + r.val) b.val)
    (xs0 : Vec Ideal S1x1 .f32) (y : S8x128.Idx) :
    out0_C_2 (F := Ideal) c i arg2 harg2 arg3 harg3 arg4 harg4 arg5 harg5 hc0 hc1 x0 x1 xs0 y = xs0 (ix2 (0 : Fin 1) (0 : Fin 1)) + pointSum N p := by
  rw [last_out_found, Pay.spread_apply, total_val c i arg2 harg2 arg3 harg3 arg4 harg4 arg5 harg5 x0 x1 p N hN]

end Cert.KernelIdeal.CaseValues

end
-- ==== Proof.DistSpec.lean ====
/-
  The quantity both programs compute, before the division by 1024: the sum over all input rows `a` and target rows
  `b` of the Euclidean distance  √(∑_d (A a b d − B b d)²)  between row `(a, b)` of the inputs and row `b` of the
  targets, over the extended reals.
-/
import proofs.«165791_j84490596646977_2_alg».proof.Proof.SumLaws
import Idealize.ShloMosaic.PureOps.Ideal
import Idealize.ShloMosaic.Lib.ValueIdx

noncomputable section

open Idealize.ShloMosaic Idealize.ShloMosaic.ValueIdx

namespace Cert.LossSpec

open Cert.LossSums Finset

/-- The distance between input row `(a, b)` and target row `b`. -/
def dist (A : (⟨3, ![1024, 1024, 128]⟩ : Shape).Idx → EReal) (B : (⟨2, ![1024, 128]⟩ : Shape).Idx → EReal)
    (a b : Fin 1024) : EReal :=
  Ideal.sqrt (∑ d : Fin 128, (A (ix3 a b d) - B (ix2 b d)) * (A (ix3 a b d) - B (ix2 b d)))

/-- The sum of all the distances. -/
def total (A : (⟨3, ![1024, 1024, 128]⟩ : Shape).Idx → EReal) (B : (⟨2, ![1024, 128]⟩ : Shape).Idx → EReal) : EReal :=
  ∑ a ∈ range 1024, ∑ b ∈ range 1024, nat2 (dist A B) a b

/-- Added in the kernel's order, the distances give the same total. -/
theorem kernelOrder_eq_total (A : (⟨3, ![1024, 1024, 128]⟩ : Shape).Idx → EReal)
    (B : (⟨2, ![1024, 128]⟩ : Shape).Idx → EReal) : kernelOrder (nat2 (dist A B)) = total A B :=
  kernel_order_eq _

end Cert.LossSpec

end
-- ==== Proof.GridValue.lean ====
/-
  The accumulator over the grid, and the output array the kernel's region leaves.

  Grid point `t` (of 64) is given rows `16 t … 16 t + 15` of the inputs and all of the targets (`blockA`,
  `blockB`), so the distances its body adds are those of the whole arrays (`block_dist`). By induction over the
  points, the accumulator after point `n` is `gridAcc` of the points' sums (`acc_eq`). The points 31 and 63 write
  the accumulator to the output blocks 0 and 1 (eight rows each), so every place of row `i` of the sixteen-row output
  ends holding the accumulator after point `32 (i / 8) + 31` (`out_final`).
-/
import proofs.«165791_j84490596646977_2_alg».proof.Proof.Gen.KernelIdeal.Frame
import proofs.«165791_j84490596646977_2_alg».proof.Proof.CaseValues
import proofs.«165791_j84490596646977_2_alg».proof.Proof.DistSpec
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.GridValue

open Cert.KernelIdeal Cert.KernelIdeal.Gen Cert.LossSums Cert.KernelIdeal.CaseValues

variable (m : (ℓ : Loc nD τ sig) → Buf (Elt Ideal) ℓ)

/-- The inputs and the targets as core `c` is given them. -/
abbrev inA (c : Dev nD) : Vec Ideal S1024x1024x128 .f32 := m ((c : Thread nD τ).loc main_arg0)
abbrev inB (c : Dev nD) : Vec Ideal S1024x128 .f32 := m ((c : Thread nD τ).loc main_arg1)

/-- Their distances, as a function of two naturals (zero outside the arrays). -/
abbrev NN (c : Dev nD) : ℕ → ℕ → EReal := nat2 (LossSpec.dist (inA m c) (inB m c))

/-- The printed index maps, decided over the grid: point `t` takes input block `t`, the one target block, and
    output block `t / 32`. -/
theorem index_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = t.val / 32 ∧ win0_2.index t (1 : Fin 2) = 0 :=
  (by decide +kernel : ∀ t : Fin grid0.N, _)

/-- Row `r` of point `t`'s input block is row `16 t + r` of the inputs. -/
theorem blockA (c : Dev nD) (t : Fin cfg0.N) (r : Fin 16) (b : Fin 1024) (d : Fin 128) (hr : 16 * t.val + r.val < 1024) :
    (iblk m c 0 t : Vec Ideal S16x1024x128 .f32) (ix3 r b d) = inA m c (ix3 ⟨16 * t.val + r.val, hr⟩ b d) := by
  obtain ⟨e0, e1, e2, -⟩ := index_facts t
  unfold iblk
  rw [View.read_apply]
  show V m c main_arg0 (((cfg0.win 0).blk t).view.emb (ix3 r b d)) = _
  rw [V_main_arg0]
  refine congrArg _ (funext fun a => Fin.ext ?_)
  match a with
  | ⟨0, _⟩ => show win0_0.index t (0 : Fin 3) * 16 + 1 * r.val = 16 * t.val + r.val; omega
  | ⟨1, _⟩ => show win0_0.index t (1 : Fin 3) * 1024 + 1 * b.val = b.val; omega
  | ⟨2, _⟩ => show win0_0.index t (2 : Fin 3) * 128 + 1 * d.val = d.val; omega

/-- Every point's target block is the whole target array. -/
theorem blockB (c : Dev nD) (t : Fin cfg0.N) (b : Fin 1024) (d : Fin 128) :
    (iblk m c 1 t : Vec Ideal S1024x128 .f32) (ix2 b d) = inB m c (ix2 b d) := by
  obtain ⟨-, -, -, e0, e1, -⟩ := index_facts t
  unfold iblk
  rw [View.read_apply]
  show V m c main_arg1 (((cfg0.win 1).blk t).view.emb (ix2 b d)) = _
  rw [V_main_arg1]
  refine congrArg _ (funext fun a => Fin.ext ?_)
  match a with
  | ⟨0, _⟩ => show win0_1.index t (0 : Fin 2) * 1024 + 1 * b.val = b.val; omega
  | ⟨1, _⟩ => show win0_1.index t (1 : Fin 2) * 128 + 1 * d.val = d.val; omega

/-- The distances point `t`'s body computes from its blocks are those of global row `16 t + r`. -/
theorem block_dist (c : Dev nD) (t : Fin cfg0.N) (x0 : Vec Ideal S16x1024x128 .f32) (x1 : Vec Ideal S1024x128 .f32)
    (hx0 : x0 = iblk m c 0 t) (hx1 : x1 = iblk m c 1 t) (r : Fin 16) (b : Fin 1024) :
    Ideal.sqrt (∑ d : Fin 128, (x0 (ix3 r b d) - x1 (ix2 b d)) * (x0 (ix3 r b d) - x1 (ix2 b d)))
      = NN m c (16 * t.val + r.val) b.val := by
  have hN : t.val < 64 := lt_of_lt_of_eq t.isLt N_0
  have hr : 16 * t.val + r.val < 1024 := by have := r.isLt; omega
  show _ = nat2 (LossSpec.dist (inA m c) (inB m c)) (16 * t.val + r.val) b.val
  unfold nat2
  rw [dif_pos ⟨hr, b.isLt⟩]
  unfold LossSpec.dist
  refine congrArg Ideal.sqrt (Finset.sum_congr rfl fun d _ => ?_)
  rw [hx0, hx1, blockA m c t r b d hr, blockB m c t b d]

/-! ## The accumulator, point by point -/

theorem acc_first (c : Dev nD) (t : Fin cfg0.N) (h0 : t.val % 32 = 0) (y : S1x1.Idx) :
    (outsAt0 m c t.val t.isLt).2 y = 0 + pointSum (NN m c) t.val := by
  have h1 : ¬t.val % 32 = 31 := by omega
  rw [outsAt0_A m c t h0 h1]
  exact first_val c (grid0.coords t) (ms0_0 t) (hs0_0 t) (ms0_1 t) (hs0_1 t) (ms0_2 t) (hs0_2 t) scM0_0 (Memref.isWhole_whole _) ((hcond0_0 t).mpr h0) (fun h => h1 ((hcond0_1 t).mp h))
    (iblk m c 0 t) (iblk m c 1 t) t.val (NN m c) (block_dist m c t (iblk m c 0 t) (iblk m c 1 t) rfl rfl) y

theorem acc_later (c : Dev nD) (t : Fin cfg0.N) (h0 : ¬t.val % 32 = 0) (h1 : ¬t.val % 32 = 31) (y : S1x1.Idx) :
    (outsAt0 m c t.val t.isLt).2 y
      = (outsAt0 m c (t.val - 1) (Nat.lt_of_le_of_lt (Nat.sub_le _ _) t.isLt)).2 y + pointSum (NN m c) t.val := by
  rw [outsAt0_B m c t h0 h1]
  exact later_val c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h))
    (iblk m c 0 t) (iblk m c 1 t) t.val (NN m c) (block_dist m c t (iblk m c 0 t) (iblk m c 1 t) rfl rfl) _ y

theorem acc_last (c : Dev nD) (t : Fin cfg0.N) (h0 : ¬t.val % 32 = 0) (h1 : t.val % 32 = 31) (y : S1x1.Idx) :
    (outsAt0 m c t.val t.isLt).2 y
      = (outsAt0 m c (t.val - 1) (Nat.lt_of_le_of_lt (Nat.sub_le _ _) t.isLt)).2 y + pointSum (NN m c) t.val := by
  rw [outsAt0_C m c t h0 h1]
  exact last_val c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
    (iblk m c 0 t) (iblk m c 1 t) t.val (NN m c) (block_dist m c t (iblk m c 0 t) (iblk m c 1 t) rfl rfl) _ y

theorem out_last (c : Dev nD) (t : Fin cfg0.N) (h0 : ¬t.val % 32 = 0) (h1 : t.val % 32 = 31) (y : S8x128.Idx) :
    (outsAt0 m c t.val t.isLt).1 y
      = (outsAt0 m c (t.val - 1) (Nat.lt_of_le_of_lt (Nat.sub_le _ _) t.isLt)).2 (ix2 (0 : Fin 1) (0 : Fin 1))
        + pointSum (NN m c) t.val := by
  rw [outsAt0_C m c t h0 h1]
  exact last_out_val c (grid0.coords t) (ms0_0 t) (hs0_0 t) (ms0_1 t) (hs0_1 t) (ms0_2 t) (hs0_2 t) scM0_0 (Memref.isWhole_whole _) (fun h => h0 ((hcond0_0 t).mp h)) ((hcond0_1 t).mpr h1)
    (iblk m c 0 t) (iblk m c 1 t) t.val (NN m c) (block_dist m c t (iblk m c 0 t) (iblk m c 1 t) rfl rfl) _ y

/-- The accumulator after point `n`. -/
theorem acc_eq (c : Dev nD) : ∀ (n : ℕ) (h : n < cfg0.N) (y : S1x1.Idx),
    (outsAt0 m c n h).2 y = gridAcc (pointSum (NN m c)) n
  | 0, h, y => acc_first m c ⟨0, h⟩ rfl y
  | n + 1, h, y => by
    by_cases h0 : (n + 1) % 32 = 0
    · rw [gridAcc_reset _ _ h0]; exact acc_first m c ⟨n + 1, h⟩ h0 y
    · rw [gridAcc_step _ _ h0, ← acc_eq c n (Nat.lt_of_succ_lt h) y]
      by_cases h1 : (n + 1) % 32 = 31
      · exact acc_last m c ⟨n + 1, h⟩ h0 h1 y
      · exact acc_later m c ⟨n + 1, h⟩ h0 h1 y

/-! ## The output array -/

/-- Row `i` of the output: the accumulator after the last point of run `i / 8`. -/
def outArr (c : Dev nD) : Vec Ideal S16x128 .f32 :=
  fun j => gridAcc (pointSum (NN m c)) (32 * ((j 0).val / 8) + 31)

/-- A point that writes back writes the accumulator it has just completed. -/
theorem flushed_eq (c : Dev nD) (t : Fin cfg0.N) (hf : (cfg0.win 2).flush t = true) :
    (dats m 0 c).flushed 2 t = ((cfg0.win 2).blk t).view.read (Elt Ideal) (outArr m c) := by
  have hN : t.val < 64 := lt_of_lt_of_eq t.isLt N_0
  have h1 : t.val % 32 = 31 := (flush0_2 t).mp hf
  have h0 : ¬t.val % 32 = 0 := by omega
  obtain ⟨-, -, -, -, -, e0, e1⟩ := index_facts t
  show (cfg0.win 2).cut (grid0.coords t) ((dats m 0 c).after 2 t) = _
  rw [after0_2]
  funext j
  rw [View.read_apply]
  show (outsAt0 m c t.val t.isLt).1 j = outArr m c (((cfg0.win 2).blk t).view.emb j)
  have hj : (j 0).val < 8 := (j 0).isLt
  have hrow : ((((cfg0.win 2).blk t).view.emb j) 0).val = win0_2.index t (0 : Fin 2) * 8 + 1 * (j 0).val := rfl
  unfold outArr
  rw [hrow, e0, show 32 * ((t.val / 32 * 8 + 1 * (j 0).val) / 8) + 31 = (t.val - 1) + 1 by omega,
    gridAcc_step _ _ (by omega), ← acc_eq m c (t.val - 1) (by have := t.isLt; omega) (ix2 (0 : Fin 1) (0 : Fin 1)),
    show t.val - 1 + 1 = t.val by omega]
  exact out_last m c t h0 h1 j

/-- An index of the output is in point `t`'s block iff each coordinate is in the block's range. -/
theorem mem_blk (t : Fin cfg0.N) (i : S16x128.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The output array after the region. -/
theorem out_final (c : Dev nD) : (dats m 0 c).arrAt 2 cfg0.N = outArr m c :=
  (dats m 0 c).arrAt_eq_of_cover 2 (outArr m c) (flushed_eq m c) fun i => by
    have hi0 : (i 0).val < 16 := (i 0).isLt
    have hi1 : (i 1).val < 128 := (i 1).isLt
    have hN : cfg0.N = 64 := N_0
    let t : Fin cfg0.N := ⟨32 * ((i 0).val / 8) + 31, by omega⟩
    obtain ⟨-, -, -, -, -, e0, e1⟩ := index_facts t
    have hv : t.val = 32 * ((i 0).val / 8) + 31 := rfl
    refine ⟨t, (flush0_2 t).mpr (by omega), ?_⟩
    rw [mem_blk]
    intro a
    match a with
    | ⟨0, _⟩ => show win0_2.index t (0 : Fin 2) * 8 ≤ (i 0).val ∧ (i 0).val < win0_2.index t (0 : Fin 2) * 8 + 8; omega
    | ⟨1, _⟩ => show win0_2.index t (1 : Fin 2) * 128 ≤ (i 1).val ∧ (i 1).val < win0_2.index t (1 : Fin 2) * 128 + 128; omega

end Cert.KernelIdeal.GridValue

end
-- ==== Proof.KernelRun.lean ====
/-
  The kernel's program, run: after the region the host takes places (0, 0) and (8, 0) of the sixteen-row output —
  the accumulators of the two runs of 32 grid points —, adds them and divides by 1024. The sum of the two
  accumulators is the kernel's order of adding all the distances, hence their total (`halves_total`).
-/
import proofs.«165791_j84490596646977_2_alg».proof.Proof.GridValue

noncomputable section

open Idealize.ShloMosaic Idealize.ShloMosaic.TcCoe Idealize.ShloMosaic.ValueIdx Idealize.SL.Sem
open Idealize.ShloMosaic.Pipeline (Dat)

namespace Cert.KernelIdeal.KernelRun

open Cert.KernelIdeal Cert.KernelIdeal.Gen Cert.LossSums Cert.KernelIdeal.GridValue

variable (m : (ℓ : Loc nD τ sig) → Buf (Elt Ideal) ℓ) (ρ : Dev nD → PrngReg)

/-- The program's result: the total of all distances, divided by 1024. -/
def result (c : Dev nD) : Vec Ideal S_ .f32 :=
  Host.divf (F := Ideal) (fun _ => LossSpec.total (inA m c) (inB m c)) (constant (F := Ideal) S_ .f32 0x44800000#32)

/-- A one-place array reshaped to a scalar holds its one value. -/
theorem cast_one (x : S1x1.Idx → EReal) (h : S1x1.ShapeCasts S_) (i : S_.Idx) :
    shapeCast S_ x h i = x (ix2 (0 : Fin 1) (0 : Fin 1)) := by
  unfold shapeCast
  refine congrArg x (funext fun a => Fin.ext ?_)
  have h1 := (Shape.reshapeEquiv h i a).isLt
  match a with
  | ⟨0, _⟩ => change _ < 1 at h1; show _ = 0; omega
  | ⟨1, _⟩ => change _ < 1 at h1; show _ = 0; omega

/-- What the host operations after the region compute from the output array. -/
theorem tail_eq (c : Dev nD) :
    Pipeline.afterTail₀ cfgs (dats m) 0 (V0 m) [hostOps1] c main_v6 = result m c := by
  unfold Pipeline.afterTail₀
  show StableHlo.after hostOps1 _ (Proc.devRef .tc main_v6) = _
  after_results
  have hw : Pipeline.withArrays (cfgs 0).spec c (V0 m c) (fun w => (dats m 0 c).arrAt w (cfgs 0).N)
      (Proc.devRef .tc main_v0) = outArr m c :=
    (Pipeline.withArrays_arr spec0 launch0.win.arr_inj c _ _ 2).trans (out_final m c)
  rw [hw]
  unfold result
  refine congrArg (fun v => Host.divf (F := Ideal) v (constant (F := Ideal) S_ .f32 0x44800000#32)) ?_
  funext i
  show shapeCast S_ (extractStridedSlice S1x1 ![0, 0] (outArr m c) slices_S16x128_S1x1_0_0) shapeCasts_S1x1_S_ i
      + shapeCast S_ (extractStridedSlice S1x1 ![8, 0] (outArr m c) slices_S16x128_S1x1_8_0) shapeCasts_S1x1_S_ i
    = LossSpec.total (inA m c) (inB m c)
  rw [cast_one _ _ i, cast_one _ _ i,
    extractStridedSlice_apply ![0, 0] (outArr m c) slices_S16x128_S1x1_0_0 (ix2 (0 : Fin 1) (0 : Fin 1))
      (ix2 (0 : Fin 16) (0 : Fin 128)) (fun a => by match a with | ⟨0, _⟩ => rfl | ⟨1, _⟩ => rfl),
    extractStridedSlice_apply ![8, 0] (outArr m c) slices_S16x128_S1x1_8_0 (ix2 (0 : Fin 1) (0 : Fin 1))
      (ix2 (8 : Fin 16) (0 : Fin 128)) (fun a => by match a with | ⟨0, _⟩ => rfl | ⟨1, _⟩ => rfl)]
  exact LossSpec.kernelOrder_eq_total (inA m c) (inB m c)

/-- The kernel's program runs, ends with its result at the total of all distances divided by 1024, and leaves its
    arguments as they were. -/
theorem run : θ_run defs (onTc (τ := τ) (main (F := Ideal))) ⟨m, fun _ => 0, ρ⟩ fun r => ∀ c : Dev nD,
      r.2.mem ((c : Thread nD τ).loc main_v6) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v6 (Pipeline.mem_restRefs_of main_v6 rfl (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.KernelRun

end
-- ==== Proof.RefValue.lean ====
/-
  The reference's result before the division, read at its one index: zero plus the sum, over all pairs of an input row
  and a target row, of the square root of zero plus the sum of the squared feature differences — the total of all
  distances.
-/
import proofs.«165791_j84490596646977_2_alg».proof.Proof.Gen.ReferenceIdeal.Read
import proofs.«165791_j84490596646977_2_alg».proof.Proof.DistSpec

noncomputable section

open Idealize.ShloMosaic Idealize.ShloMosaic.ValueIdx

namespace Cert.ReferenceIdeal.RefValue

open Cert.ReferenceIdeal Cert.ReferenceIdeal.Read Cert.LossSums Cert.LossSpec

/-- One entry of the reference's table of distances. -/
theorem dist_apply (A : Vec Ideal S1024x1024x128 .f32) (B : Vec Ideal S1024x128 .f32) (a b : Fin 1024) :
    val_main_v5 (F := Ideal) A B (ix2 a b) = LossSpec.dist A B a b := by
  rw [val_main_v5_apply, val_main_v4_apply]
  show Ideal.sqrt (Ideal.ofBits .f32 0x00000000#32 + ∑ k : Fin 128, val_main_v3 (F := Ideal) A B (idx_main_v4 (ix2 a b) k)) = _
  rw [Ideal.ofBits_zero_f32, zero_add]
  unfold LossSpec.dist
  refine congrArg Ideal.sqrt (Finset.sum_congr rfl fun d _ => ?_)
  have e0 : idx_main_v4 (ix2 a b) d = ix3 a b d :=
    funext fun x => Fin.ext (by match x with | ⟨0, _⟩ => rfl | ⟨1, _⟩ => rfl | ⟨2, _⟩ => rfl)
  have e1 : idx_main_v0 (idx_main_v1 (ix3 a b d)) = ix2 b d :=
    funext fun x => Fin.ext (by match x with | ⟨0, _⟩ => rfl | ⟨1, _⟩ => rfl)
  rw [val_main_v3_apply, val_main_v2_apply, val_main_v1_apply, val_main_v0_apply, e0, e1]
  rfl

/-- The reference's sum of the table is the total of all distances. -/
theorem sum_apply (A : Vec Ideal S1024x1024x128 .f32) (B : Vec Ideal S1024x128 .f32) (i : S_.Idx) :
    val_main_v6 (F := Ideal) A B i = total A B := by
  rw [val_main_v6_apply]
  show Ideal.ofBits .f32 0x00000000#32 + ∑ j : S1024x1024.Idx, val_main_v5 (F := Ideal) A B j = _
  rw [Ideal.ofBits_zero_f32, zero_add, sum_idx2]
  unfold total
  rw [sum_nat2]
  exact Finset.sum_congr rfl fun a _ => Finset.sum_congr rfl fun b _ => dist_apply A B a b

/-- The reference's result: the total of all distances, divided by 1024. -/
theorem result_eq (A : Vec Ideal S1024x1024x128 .f32) (B : Vec Ideal S1024x128 .f32) :
    val_main_v7 (F := Ideal) A B
      = Host.divf (F := Ideal) (fun _ => total A B) (constant (F := Ideal) S_ .f32 0x44800000#32) := by
  unfold val_main_v7
  rw [show val_main_v6 (F := Ideal) A B = fun _ => total A B from funext (sum_apply A B)]
  rfl

end Cert.ReferenceIdeal.RefValue

end
-- ==== Proof.lean ====
/-
  The mean, over the 1024 target rows, of the summed Euclidean distances between each of the 1024 × 1024 input rows
  and its target row: the kernel against its reference, over the extended reals.

  Both programs compute  (∑_a ∑_b √(∑_d (x a b d − t b d)²)) / 1024.  The reference sums the 1024 × 1024 table of
  distances at once. The kernel walks the first axis in 64 grid points of sixteen rows; inside a point it walks the
  second axis in four chunks of 256 columns, keeps one running sum per row, adds the sixteen rows, and adds the
  point's value to an accumulator that is reset at points 0 and 32; the two accumulators, written to rows 0–7 and
  8–15 of the output, are added by the host and divided by 1024. Addition of extended reals is commutative and
  associative (infinities included), so the two orders give one sum; no finiteness of the inputs is used.

  The modules: SumLaws (the regrouping of a finite sum in the kernel's order), DistSpec (the distances and their
  total), Payloads (the body's arithmetic read at an index), LoopValue (the loop over the chunks), CaseValues (what a
  grid point leaves in the accumulator and in the output block), GridValue (the accumulator over the grid and the
  output array), KernelRun (the host's last operations and the kernel's run), RefValue (the reference's result).
-/
import proofs.«165791_j84490596646977_2_alg».proof.Defs
import proofs.«165791_j84490596646977_2_alg».proof.Proof.Gen.Kernel
import proofs.«165791_j84490596646977_2_alg».proof.Proof.Gen.Kernel.Frame
import proofs.«165791_j84490596646977_2_alg».proof.Proof.Gen.KernelIdeal
import proofs.«165791_j84490596646977_2_alg».proof.Proof.Gen.KernelIdeal.Frame
import proofs.«165791_j84490596646977_2_alg».proof.Proof.Gen.ReferenceIdeal
import proofs.«165791_j84490596646977_2_alg».proof.Proof.Gen.ReferenceIdeal.Run
import proofs.«165791_j84490596646977_2_alg».proof.Proof.Gen.ReferenceIdeal.Read
import proofs.«165791_j84490596646977_2_alg».proof.Proof.Gen.Pre_finite_inputs
import proofs.«165791_j84490596646977_2_alg».proof.Proof.KernelRun
import proofs.«165791_j84490596646977_2_alg».proof.Proof.RefValue
import Idealize.ShloMosaic.Adequacy
import Idealize.ShloMosaic.Init

noncomputable section

namespace Cert.Proof

open Idealize.ShloMosaic Idealize.SL.Sem

/-- The kernel's program runs and leaves its arguments unchanged, at the word level, -/
theorem frame_kernel : Cert.frame_Kernel := fun m ρ _ => Cert.Kernel.Gen.frame m ρ

/-- and over the extended reals. -/
theorem frame_kernelIdeal : Cert.frame_KernelIdeal := fun m ρ _ => Cert.KernelIdeal.Gen.frame m ρ

/-- The reference runs and leaves its arguments unchanged: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Both programs end with the total of all distances divided by 1024. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v7_eq _ _).trans (Cert.ReferenceIdeal.RefValue.result_eq _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
